-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1x1024 .f32
  ∧ IdealRules.sign_bit.Statement Cert.KernelIdeal.S1x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1026x65536 : Shape := ⟨2, ![1026, 65536]⟩
abbrev S65536 : Shape := ⟨1, ![65536]⟩
abbrev S_ : Shape := ⟨0, ![]⟩

class Facts : Prop where
  bcast_S_S1026x65536 : S_.BroadcastsInDim S1026x65536 (![] : Fin 0 → Fin S1026x65536.rank)
  reducesTo_S1026x65536_S_d0_1 : S1026x65536.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S1026x65536 .f32) (main_arg1 : FVec F S65536 .f32) (main_arg2 : FVec F S65536 .f32) (main_arg3 : FVec F S65536 .f32) : IVec S_ 1 :=
  let main_v0 : FVec F S1026x65536 .f32 := Host.absf main_arg0
  let main_cst : FVec F S_ .f32 := constant S_ .f32 0x7F800000#32
  let main_v1 : FVec F S1026x65536 .f32 := broadcastInDim S1026x65536 ![] bcast_S_S1026x65536 main_cst
  let main_v2 : IVec S1026x65536 1 := cmpf .olt main_v0 main_v1
  let main_c : IVec S_ 1 := constantI S_ 1 1#1
  let main_v3 : IVec S_ 1 := (fun x v => Host.reduce IntOp.andi x v reducesTo_S1026x65536_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S1026x65536 : Shape := ⟨2, ![1026, 65536]⟩
abbrev S65536 : Shape := ⟨1, ![65536]⟩
abbrev S1x65536 : Shape := ⟨2, ![1, 65536]⟩
abbrev S1026x1024 : Shape := ⟨2, ![1026, 1024]⟩
abbrev S1x1024 : Shape := ⟨2, ![1, 1024]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S1026x65536, .f32⟩
  | .hbm, ⟨1, _⟩ => ⟨S65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S1026x65536, .f32⟩
  | .hbm, ⟨6, _⟩ => ⟨S1x65536, .f32⟩
  | .hbm, ⟨7, _⟩ => ⟨S1x65536, .f32⟩
  | .hbm, ⟨8, _⟩ => ⟨S1x65536, .f32⟩
  | .hbm, ⟨9, _⟩ => ⟨S65536, .f32⟩
  | .hbm, ⟨10, _⟩ => ⟨S65536, .f32⟩
  | .hbm, ⟨11, _⟩ => ⟨S65536, .f32⟩
  | .local _ .vmem, ⟨0, _⟩ => ⟨S1026x1024, .f32⟩
  | .local _ .vmem, ⟨1, _⟩ => ⟨S1026x1024, .f32⟩
  | .local _ .vmem, ⟨2, _⟩ => ⟨S1x1024, .f32⟩
  | .local _ .vmem, ⟨3, _⟩ => ⟨S1x1024, .f32⟩
  | .local _ .vmem, ⟨4, _⟩ => ⟨S1026x1024, .f32⟩
  | .local _ .vmem, ⟨5, _⟩ => ⟨S1026x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S1026x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1026x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1026x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S65536_S1x65536 : S65536.ShapeCasts S1x65536
  inb_S1026x1024_S1026x1024_0_0 : ∀ a, (![0, 0] : Fin 2 → Nat) a + S1026x1024.size a ≤ S1026x1024.size a
  h_S1026x1024 : 0 < S1026x1024.numel
  slices_S1026x1024_o0_0_S1x1024 : S1026x1024.Slices ![0, 0] S1x1024
  reduces_S1026x1024_S1024 : S1026x1024.Reduces [0] S1024
  shapeCasts_S1024_S1x1024 : S1024.ShapeCasts S1x1024
  iota_S1026x1024_d0_w32 : S1026x1024.Iotas .tc 32 [0]
  shapeCasts_S1x1024_S1x1024 : S1x1024.ShapeCasts S1x1024
  broadcasts_S1x1024_S1026x1024 : S1x1024.Broadcasts S1026x1024
  inb_S1x1024_S1x1024_0_0 : ∀ a, (![0, 0] : Fin 2 → Nat) a + S1x1024.size a ≤ S1x1024.size a
  h_S1x1024 : 0 < S1x1024.numel
  shapeCasts_S1x65536_S65536 : S1x65536.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1026x1024.size a ≤ S1026x65536.size a
  hwx0_0 : ∀ i : grid0.Coords, EltTy.bits .f32 = 32 ∨ (Rect.block (s := S1026x65536) S1026x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x65536.size a
  hwx0_1 : ∀ i : grid0.Coords, EltTy.bits .f32 = 32 ∨ (Rect.block (s := S1x65536) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1026x1024.size a ≤ S1026x65536.size a
  hwx0_2 : ∀ i : grid0.Coords, EltTy.bits .f32 = 32 ∨ (Rect.block (s := S1026x65536) S1026x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x65536.size a
  hwx0_3 : ∀ i : grid0.Coords, EltTy.bits .f32 = 32 ∨ (Rect.block (s := S1x65536) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x65536.size a
  hwx0_4 : ∀ i : grid0.Coords, EltTy.bits .f32 = 32 ∨ (Rect.block (s := S1x65536) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x65536.size a
  hwx0_5 : ∀ i : grid0.Coords, EltTy.bits .f32 = 32 ∨ (Rect.block (s := S1x65536) S1x1024.size (cc0_transform_5 i) (hinb0_5 i)).WholeWords (EltTy.packing .f32)

variable [Facts₀]

abbrev win0_0 : Pipeline.Window sig grid0 :=
  Pipeline.Window.ofSpec (Memref.whole main_arg0) S1026x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1026x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S1x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1026x65536 : Shape := ⟨2, ![1026, 65536]⟩
abbrev S65536 : Shape := ⟨1, ![65536]⟩
abbrev S1x65536 : Shape := ⟨2, ![1, 65536]⟩
abbrev S1024x65536 : Shape := ⟨2, ![1024, 65536]⟩
abbrev S1025x65536 : Shape := ⟨2, ![1025, 65536]⟩
abbrev S_ : Shape := ⟨0, ![]⟩

abbrev nBuf : Space → Nat
  | .hbm => 89
  | .vmem => 0
  | .smem => 0
  | _ => 0

abbrev bufTy : (tb : Table) → Fin (tcTables nBuf tb) → BufTy
  | .hbm, ⟨0, _⟩ => ⟨S1026x65536, .f32⟩
  | .hbm, ⟨1, _⟩ => ⟨S65536, .f32⟩
  | .hbm, ⟨2, _⟩ => ⟨S65536, .f32⟩
  | .hbm, ⟨3, _⟩ => ⟨S65536, .f32⟩
  | .hbm, ⟨4, _⟩ => ⟨S1x65536, .f32⟩
  | .hbm, ⟨5, _⟩ => ⟨S65536, .f32⟩
  | .hbm, ⟨6, _⟩ => ⟨S1024x65536, .f32⟩
  | .hbm, ⟨7, _⟩ => ⟨S1x65536, .f32⟩
  | .hbm, ⟨8, _⟩ => ⟨S65536, .f32⟩
  | .hbm, ⟨9, _⟩ => ⟨S1025x65536, .f32⟩
  | .hbm, ⟨10, _⟩ => ⟨S1025x65536, .f32⟩
  | .hbm, ⟨11, _⟩ => ⟨S_, .f32⟩
  | .hbm, ⟨12, _⟩ => ⟨S65536, .f32⟩
  | .hbm, ⟨13, _⟩ => ⟨S65536, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S_, .f32⟩
  | .hbm, ⟨22, _⟩ => ⟨S65536, .f32⟩
  | .hbm, ⟨23, _⟩ => ⟨S65536, .i1⟩
  | .hbm, ⟨24, _⟩ => ⟨S_, .f32⟩
  | .hbm, ⟨25, _⟩ => ⟨S65536, .f32⟩
  | .hbm, ⟨26, _⟩ => ⟨S65536, .i1⟩
  | .hbm, ⟨27, _⟩ => ⟨S_, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S65536, .f32⟩
  | .hbm, ⟨32, _⟩ => ⟨S_, .f32⟩
  | .hbm, ⟨33, _⟩ => ⟨S_, .f32⟩
  | .hbm, ⟨34, _⟩ => ⟨S65536, .f32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536, .f32⟩
  | .hbm, ⟨44, _⟩ => ⟨S_, .f32⟩
  | .hbm, ⟨45, _⟩ => ⟨S65536, .f32⟩
  | .hbm, ⟨46, _⟩ => ⟨S65536, .i1⟩
  | .hbm, ⟨47, _⟩ => ⟨S_, .f32⟩
  | .hbm, ⟨48, _⟩ => ⟨S65536, .f32⟩
  | .hbm, ⟨49, _⟩ => ⟨S65536, .i1⟩
  | .hbm, ⟨50, _⟩ => ⟨S_, .f32⟩
  | .hbm, ⟨51, _⟩ => ⟨S_, .f32⟩
  | .hbm, ⟨52, _⟩ => ⟨S65536, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S_, .f32⟩
  | .hbm, ⟨60, _⟩ => ⟨S65536, .f32⟩
  | .hbm, ⟨61, _⟩ => ⟨S65536, .f32⟩
  | .hbm, ⟨62, _⟩ => ⟨S65536, .f32⟩
  | .hbm, ⟨63, _⟩ => ⟨S1x65536, .f32⟩
  | .hbm, ⟨64, _⟩ => ⟨S1024x65536, .f32⟩
  | .hbm, ⟨65, _⟩ => ⟨S1024x65536, .f32⟩
  | .hbm, ⟨66, _⟩ => ⟨S65536, .f32⟩
  | .hbm, ⟨67, _⟩ => ⟨S65536, .f32⟩
  | .hbm, ⟨68, _⟩ => ⟨S_, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S65536, .f32⟩
  | .hbm, ⟨73, _⟩ => ⟨S1x65536, .f32⟩
  | .hbm, ⟨74, _⟩ => ⟨S1x65536, .f32⟩
  | .hbm, ⟨75, _⟩ => ⟨S1026x65536, .f32⟩
  | .hbm, ⟨76, _⟩ => ⟨S1025x65536, .f32⟩
  | .hbm, ⟨77, _⟩ => ⟨S1025x65536, .f32⟩
  | .hbm, ⟨78, _⟩ => ⟨S_, .f32⟩
  | .hbm, ⟨79, _⟩ => ⟨S65536, .f32⟩
  | .hbm, ⟨80, _⟩ => ⟨S1x65536, .f32⟩
  | .hbm, ⟨81, _⟩ => ⟨S65536, .f32⟩
  | .hbm, ⟨82, _⟩ => ⟨S65536, .f32⟩
  | .hbm, ⟨83, _⟩ => ⟨S1x65536, .f32⟩
  | .hbm, ⟨84, _⟩ => ⟨S65536, .f32⟩
  | .hbm, ⟨85, _⟩ => ⟨S65536, .f32⟩
  | .hbm, ⟨86, _⟩ => ⟨S_, .f32⟩
  | .hbm, ⟨87, _⟩ => ⟨S65536, .f32⟩
  | .hbm, ⟨88, _⟩ => ⟨S65536, .f32⟩
  | _, _ => ⟨S1026x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_cst_9 : Ref sig .tc := ⟨.hbm, 51, rfl⟩
abbrev main_call2_v0 : Ref sig .tc := ⟨.hbm, 52, rfl⟩
abbrev main_call2_v1 : Ref sig .tc := ⟨.hbm, 53, rfl⟩
abbrev main_v33 : Ref sig .tc := ⟨.hbm, 54, rfl⟩
abbrev main_call3_v0 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_call4_v0 : Ref sig .tc := ⟨.hbm, 59, rfl⟩
abbrev main_call4_v1 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_call5_v0 : Ref sig .tc := ⟨.hbm, 69, rfl⟩
abbrev main_call5_v1 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call6_cst : Ref sig .tc := ⟨.hbm, 86, rfl⟩
abbrev main_call6_v0 : Ref sig .tc := ⟨.hbm, 87, rfl⟩
abbrev main_v57 : Ref sig .tc := ⟨.hbm, 88, rfl⟩

abbrev nD : Nat := 1
abbrev τ : Topo := Topo.v7x

variable {F : FTy → Type} [FloatOps F]

class Facts₀ : Prop where
  slices_S1026x65536_S1x65536_0_0 : S1026x65536.Slices ![0, 0] S1x65536
  shapeCasts_S1x65536_S65536 : S1x65536.ShapeCasts S65536
  slices_S1026x65536_S1024x65536_1_0 : S1026x65536.Slices ![1, 0] S1024x65536
  slices_S1026x65536_S1x65536_1025_0 : S1026x65536.Slices ![1025, 0] S1x65536
  slices_S1026x65536_S1025x65536_1_0 : S1026x65536.Slices ![1, 0] S1025x65536
  reducesTo_S1025x65536_S65536_d0 : S1025x65536.ReducesTo [0] S65536
  h_S_ : 0 < S_.numel
  bcast_S_S65536 : S_.BroadcastsInDim S65536 (![] : Fin 0 → Fin S65536.rank)
  bcast_S65536_S1x65536_1 : S65536.BroadcastsInDim S1x65536 (![1] : Fin 1 → Fin S1x65536.rank)
  bcast_S1x65536_S1024x65536_0_1 : S1x65536.BroadcastsInDim S1024x65536 (![0, 1] : Fin 2 → Fin S1024x65536.rank)
  concatenates_S1x65536_S1024x65536_S1x65536_S1026x65536_d0 : Shape.Concatenates [S1x65536, S1024x65536, S1x65536] S1026x65536 0

variable [Facts₀]

class Facts : Prop extends Facts₀ where

variable [Facts]
-- ==== Proof.ColumnMath.lean ====
/-
  The per-column mathematics of the zonotope ReLU relaxation, on the extended reals, with no program in sight.

  A column is a function `col : Fin 1026 → EReal`: entry 0 is the centre, entries 1 … 1024 the symbol
  coefficients, entry 1025 the noise coefficient.  With `A` the sum of the magnitudes of entries 1 … 1025,
  the interval is `[c - A, c + A]`; the relaxation's slope `coef`, offset `bias` and the multiplier `mult`
  are scalar functions of `(c, A)`; the new column is `mult · col` with the offset added to the centre and
  its magnitude to the noise row, and the new bounds are `new centre ∓ (sum of magnitudes of the new rows 1 … 1025)`.

  Two spellings of the tail sum meet here: the sum over rows 1 … 1025 directly (`tailAbs`), and the sum over
  ALL rows minus the magnitude of row 0 (`fullMinusHead`).  They agree when row 0 is a real number
  (`fullMinusHead_eq_tailAbs`): on the extended reals `(a + s) - a = s` needs `a` finite.  That row 0 of the
  new column is real when the centre and `A` are is `newCenter_real`.
-/
import Idealize.ShloMosaic.PureOps.Ideal
import Idealize.ShloMosaic.PureOps.Ideal.Laws
import Idealize.ShloMosaic.Lib.ValueIdx

noncomputable section

namespace Cert.ZonoRelu

open Idealize.ShloMosaic
open scoped BigOperators

/-! ## The three float constants both programs spell -/

def zero : EReal := Ideal.ofBits .f32 0x00000000#32
def one : EReal := Ideal.ofBits .f32 0x3F800000#32
def half : EReal := Ideal.ofBits .f32 0x3F000000#32

theorem zero_eq : zero = 0 := by
  unfold zero; simp [Ideal.ofBits, Ideal.ieee]
theorem one_eq : one = 1 := by
  unfold one; simp [Ideal.ofBits, Ideal.ieee, -EReal.coe_mul]; norm_num
theorem half_eq : half = (((1 : ℝ) / 2 : ℝ) : EReal) := by
  unfold half; simp [Ideal.ofBits, Ideal.ieee, -EReal.coe_mul]; norm_num

/-! ## Scalars of one column -/

/-- The magnitude of an extended real. -/
def mag (x : EReal) : EReal := max x (-x)

def lo (c A : EReal) : EReal := c - A
def hi (c A : EReal) : EReal := c + A
/-- The sum of the two end points' signs: 0 exactly when the interval straddles (or touches from both sides) zero. -/
def sgn (c A : EReal) : EReal := Ideal.sign (lo c A) + Ideal.sign (hi c A)
def den (c A : EReal) : EReal := mag (hi c A) + mag (lo c A)
def degen (c A : EReal) : BitVec 1 := Ideal.cmp .oeq (den c A) zero
/-- The slope `hi / (|hi| + |lo|)`, and 0 where the denominator vanishes. -/
def coef (c A : EReal) : EReal :=
  Scalar.select (degen c A) zero (Ideal.div (hi c A) (Scalar.select (degen c A) one (den c A)))
def bias (c A : EReal) : EReal := hi c A * (one - coef c A) * half
def crossing (c A : EReal) : BitVec 1 := Ideal.cmp .oeq (sgn c A) zero
def positive (c A : EReal) : BitVec 1 := Ideal.cmp .oge (sgn c A) one
def mult (c A : EReal) : EReal :=
  Scalar.select (crossing c A) (coef c A) (Scalar.select (positive c A) one zero)
def shift (c A : EReal) : EReal := Scalar.select (crossing c A) (bias c A) zero
def noise (c A : EReal) : EReal := Scalar.select (crossing c A) (mag (bias c A)) zero
def newCenter (c A : EReal) : EReal := mult c A * c + shift c A
def newLast (c A x : EReal) : EReal := mag (mult c A) * x + noise c A

/-! ## A column -/

/-- Row `k + 1` of a column, for `k` below 1025. -/
def below (k : Fin 1025) : Fin 1026 := ⟨1 + k.val, by have := k.isLt; omega⟩

/-- The sum of the magnitudes of rows 1 … 1025, from zero. -/
def tailAbs (col : Fin 1026 → EReal) : EReal := zero + ∑ k : Fin 1025, mag (col (below k))

/-- The sum of the magnitudes of all rows, less the magnitude of row 0. -/
def fullMinusHead (col : Fin 1026 → EReal) (head : EReal) : EReal := (∑ r : Fin 1026, mag (col r)) - mag head

/-- The new column: the centre row, the symbol rows, the noise row. -/
def newRow (col : Fin 1026 → EReal) (A : EReal) (r : Fin 1026) : EReal :=
  if r.val = 0 then newCenter (col 0) A
  else if r.val = 1025 then newLast (col 0) A (col r)
  else mult (col 0) A * col r

/-! ## Finiteness -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.mag {x : EReal} (hx : IsReal x) : IsReal (mag x) := by
  unfold ZonoRelu.mag
  rcases max_choice x (-x) with h | h <;> rw [h]
  · exact hx
  · exact hx.neg
theorem IsReal.select {c : BitVec 1} {x y : EReal} (hx : IsReal x) (hy : IsReal y) : IsReal (Scalar.select c x y) := by
  unfold Scalar.select; split <;> assumption
theorem isReal_zero : IsReal zero := ⟨0, by rw [zero_eq]; rfl⟩
theorem isReal_one : IsReal one := ⟨1, by rw [one_eq]; rfl⟩
theorem isReal_half : IsReal half := ⟨1 / 2, half_eq⟩

/-- The sign of anything is one of the reals -1, 0, 1. -/
theorem isReal_sign (x : EReal) : IsReal (Ideal.sign x) := by
  induction x with
  | bot => exact ⟨-1, by rw [Ideal.sign_bot]; norm_num⟩
  | top => exact ⟨1, by rw [Ideal.sign_top]; norm_num⟩
  | coe r => exact ⟨_, Ideal.sign_coe r⟩

/-- A quotient of reals by a nonzero real is a real. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  refine ⟨a / b, ?_⟩
  unfold Ideal.div
  rw [if_neg h0, ← EReal.coe_inv b, ← EReal.coe_mul, div_eq_mul_inv]

theorem isReal_coef {c A : EReal} (hc : IsReal c) (hA : IsReal A) : IsReal (coef c A) := by
  unfold coef
  refine IsReal.select isReal_zero (IsReal.div (hc.add hA) (IsReal.select isReal_one ((hc.add hA).mag.add (hc.sub hA).mag)) ?_)
  unfold Scalar.select
  split
  · rw [one_eq]; exact one_ne_zero
  · rename_i h
    intro h0
    apply h
    have hd : den c A = zero := by rw [zero_eq]; exact h0
    unfold degen Ideal.cmp
    simp [hd]

theorem isReal_bias {c A : EReal} (hc : IsReal c) (hA : IsReal A) : IsReal (bias c A) :=
  ((hc.add hA).mul (isReal_one.sub (isReal_coef hc hA))).mul isReal_half

theorem isReal_mult {c A : EReal} (hc : IsReal c) (hA : IsReal A) : IsReal (mult c A) :=
  IsReal.select (isReal_coef hc hA) (IsReal.select isReal_one isReal_zero)

/-- The new centre is a real number when the centre and the tail sum are. -/
theorem newCenter_real {c A : EReal} (hc : IsReal c) (hA : IsReal A) : IsReal (newCenter c A) :=
  ((isReal_mult hc hA).mul hc).add (IsReal.select (isReal_bias hc hA) isReal_zero)

/-- A finite sum of reals is a real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem tailAbs_real {col : Fin 1026 → EReal} (h : ∀ r, IsReal (col r)) : IsReal (tailAbs col) :=
  isReal_zero.add (isReal_sum _ _ fun k => (h _).mag)

/-! ## The two spellings of the tail sum -/

/-- All rows' magnitudes less row 0's is the tail sum, when row 0 is a real number. -/
theorem fullMinusHead_eq_tailAbs (col : Fin 1026 → EReal) (h0 : IsReal (col 0)) :
    fullMinusHead col (col 0) = tailAbs col := by
  unfold fullMinusHead tailAbs
  obtain ⟨a, ha⟩ := h0.mag
  rw [Fin.sum_univ_succ (n := 1025), ha, EReal.add_sub_cancel_left, zero_eq, zero_add]
  refine Finset.sum_congr rfl fun k _ => ?_
  exact congrArg (fun r => mag (col r)) (Fin.ext (by simp [below, Fin.succ]; omega))

/-- Row 0 of the new column is the new centre. -/
theorem newRow_zero (col : Fin 1026 → EReal) (A : EReal) : newRow col A 0 = newCenter (col 0) A := by
  unfold newRow; rw [if_pos (show (0 : Fin 1026).val = 0 from rfl)]

/-- For the new column too: all magnitudes less the new centre's is its tail sum, the new centre being real. -/
theorem newTail_eq (col : Fin 1026 → EReal) (A : EReal) (h : IsReal (newCenter (col 0) A)) :
    fullMinusHead (newRow col A) (newCenter (col 0) A) = tailAbs (newRow col A) := by
  rw [← newRow_zero col A] at h ⊢
  exact fullMinusHead_eq_tailAbs _ h

end Cert.ZonoRelu

end
-- ==== Proof.Spec.lean ====
/-
  The specification: the four results as functions of the whole argument arrays, index by index.

  `X` is the [1026, 65536] array of zonotope terms (row 0 the centres, rows 1 … 1024 the symbol coefficients,
  row 1025 the noise coefficients) and `T` the [65536] vector of concrete activations.  Column `j` of `X` is
  relaxed by itself (ColumnMath): `specNew X` holds the new columns, `specMin X` / `specMax X` the new centre
  minus / plus the sum of the magnitudes of the new rows 1 … 1025, and `specTrue T` is `max T 0`.
-/
import proofs.«111873_j37529424233162_2_alg».proof.Proof.ColumnMath

noncomputable section

namespace Cert.ZonoRelu

open Idealize.ShloMosaic Idealize.ShloMosaic.ValueIdx

/-- Column `j` of the term array. -/
def colOf (X : (⟨2, ![1026, 65536]⟩ : Shape).Idx → EReal) (j : Fin 65536) : Fin 1026 → EReal := fun r => X (ix2 r j)

/-- The sum of the magnitudes of rows 1 … 1025 of column `j`. -/
def tailOf (X : (⟨2, ![1026, 65536]⟩ : Shape).Idx → EReal) (j : Fin 65536) : EReal := tailAbs (colOf X j)

/-- Column `j` after the relaxation. -/
def newCol (X : (⟨2, ![1026, 65536]⟩ : Shape).Idx → EReal) (j : Fin 65536) : Fin 1026 → EReal :=
  newRow (colOf X j) (tailOf X j)

def specNew (X : (⟨2, ![1026, 65536]⟩ : Shape).Idx → EReal) : (⟨2, ![1026, 65536]⟩ : Shape).Idx → EReal :=
  fun i => newCol X (i 1) (i 0)

def specMin (X : (⟨2, ![1026, 65536]⟩ : Shape).Idx → EReal) : (⟨1, ![65536]⟩ : Shape).Idx → EReal :=
  fun i => newCol X (i 0) 0 - tailAbs (newCol X (i 0))

def specMax (X : (⟨2, ![1026, 65536]⟩ : Shape).Idx → EReal) : (⟨1, ![65536]⟩ : Shape).Idx → EReal :=
  fun i => newCol X (i 0) 0 + tailAbs (newCol X (i 0))

def specTrue (T : (⟨1, ![65536]⟩ : Shape).Idx → EReal) : (⟨1, ![65536]⟩ : Shape).Idx → EReal :=
  fun i => max (T i) zero

/-- Row 0 of the new column is the new centre. -/
theorem newCol_zero (X : (⟨2, ![1026, 65536]⟩ : Shape).Idx → EReal) (j : Fin 65536) :
    newCol X j 0 = newCenter (X (ix2 0 j)) (tailOf X j) := by
  unfold newCol; rw [newRow_zero]; rfl

/-- When every entry of the array is a real number, so is each new centre. -/
theorem newCol_zero_real (X : (⟨2, ![1026, 65536]⟩ : Shape).Idx → EReal) (hX : ∀ i, IsReal (X i)) (j : Fin 65536) :
    IsReal (newCol X j 0) := by
  rw [newCol_zero]
  exact newCenter_real (hX _) (tailAbs_real fun r => hX _)

end Cert.ZonoRelu

end
-- ==== Proof.RefColumn.lean ====
/-
  The reference program read column by column.

  Each stage of the reference that matters is identified, at an index, with the per-column scalar it computes:
  the centre (row 0 of the column), the tail sum `A` of magnitudes over rows 1 … 1025, then the multiplier, the
  new centre, the new noise row and the new symbol rows as the scalar functions of `(centre, A)`; the
  concatenation of the three row groups is the new column; and the two bounds are the new centre minus / plus the tail
  sum of the new column.  Pointwise stages unfold by definition; the layout stages (slices, reshapes,
  broadcasts, the concatenation) are read at an index by coordinate arithmetic.
-/
import proofs.«111873_j37529424233162_2_alg».proof.Proof.Gen.ReferenceIdeal.Read
import proofs.«111873_j37529424233162_2_alg».proof.Proof.Spec
import Idealize.ShloMosaic.Lib.Pipeline.Value
import Idealize.ShloMosaic.Lib.ValueIdx

set_option maxRecDepth 8192

noncomputable section

namespace Cert.ReferenceIdeal.RefValue

open Cert.ReferenceIdeal Cert.ReferenceIdeal.Gen Cert.ReferenceIdeal.Read Cert.ZonoRelu
open Idealize.ShloMosaic Idealize.ShloMosaic.ValueIdx

variable (X : S1026x65536.Idx → EReal)

/-- The reference's row-0 slice, flattened: the centre of column `i`. -/
theorem center_eq (i : S65536.Idx) : val_main_v1 (F := Ideal) X i = X (ix2 (n1 := 65536) (0 : Fin 1026) (i 0)) := by
  rw [val_main_v1_apply, val_main_v0_apply]
  refine congrArg X (funext fun a => Fin.ext ?_)
  match a with
  | ⟨0, _⟩ => rfl
  | ⟨1, _⟩ => exact Nat.mod_eq_of_lt (i 0).isLt

/-- The reference's last-row slice, flattened: the noise coefficient of column `i`. -/
theorem lastRow_eq (i : S65536.Idx) : val_main_v4 (F := Ideal) X i = X (ix2 (n1 := 65536) (1025 : Fin 1026) (i 0)) := by
  rw [val_main_v4_apply, val_main_v3_apply]
  refine congrArg X (funext fun a => Fin.ext ?_)
  match a with
  | ⟨0, _⟩ => rfl
  | ⟨1, _⟩ => exact Nat.mod_eq_of_lt (i 0).isLt

/-- The reference's sum of magnitudes over rows 1 … 1025 of column `i`. -/
theorem tail_eq (i : S65536.Idx) : val_main_v7 (F := Ideal) X i = tailOf X (i 0) := by
  rw [val_main_v7_apply]
  unfold tailOf tailAbs
  refine congrArg₂ (· + ·) rfl (Finset.sum_congr rfl fun k _ => ?_)
  rw [val_main_v6_apply, val_main_v5_apply]
  exact congrArg (fun y => mag (X y)) (funext fun a => by match a with | ⟨0, _⟩ => rfl | ⟨1, _⟩ => rfl)

/-- The multiplier of column `i`, as the scalar function of the centre and the tail sum. -/
theorem mult_eq (i : S65536.Idx) :
    val_main_v34 (F := Ideal) X i = mult (val_main_v1 (F := Ideal) X i) (val_main_v7 (F := Ideal) X i) := rfl

/-- The new centre of column `i`. -/
theorem newCenter_eq (i : S65536.Idx) :
    val_main_v37 (F := Ideal) X i = newCenter (val_main_v1 (F := Ideal) X i) (val_main_v7 (F := Ideal) X i) := rfl

/-- The new noise coefficient of column `i`. -/
theorem newLast_eq (i : S65536.Idx) :
    val_main_v44 (F := Ideal) X i
      = newLast (val_main_v1 (F := Ideal) X i) (val_main_v7 (F := Ideal) X i) (val_main_v4 (F := Ideal) X i) := rfl

/-- The centre and the tail sum at the column an index names: the pair every later stage is a function of. -/
theorem pair_eq (i : S65536.Idx) :
    val_main_v1 (F := Ideal) X i = X (ix2 (n1 := 65536) (0 : Fin 1026) (i 0)) ∧ val_main_v7 (F := Ideal) X i = tailOf X (i 0) :=
  ⟨center_eq X i, tail_eq X i⟩

/-- A symbol row of the new column: the multiplier times the old row. -/
theorem newMid_eq (k : Fin 1024) (j : Fin 65536) :
    val_main_v40 (F := Ideal) X (ix2 k j)
      = mult (X (ix2 (0 : Fin 1026) j)) (tailOf X j) * X (ix2 (⟨1 + k.val, by have := k.isLt; omega⟩ : Fin 1026) j) := by
  rw [val_main_v40_apply, val_main_v39_apply, val_main_v38_apply, mult_eq, center_eq, tail_eq, val_main_v2_apply]
  refine congrArg₂ (· * ·) rfl (congrArg X (funext fun a => Fin.ext ?_))
  match a with
  | ⟨0, _⟩ => rfl
  | ⟨1, _⟩ => rfl

/-- The concatenation of the new centre row, the new symbol rows and the new noise row is the new column. -/
theorem newCol_eq (r : Fin 1026) (j : Fin 65536) : val_main_v47 (F := Ideal) X (ix2 r j) = newCol X j r := by
  unfold val_main_v47 newCol newRow
  by_cases h0 : r.val = 0
  · rw [if_pos h0]
    refine (concatenate_apply_piece (0 : Fin 2) [⟨S1x65536, val_main_v45 (F := Ideal) X⟩, ⟨S1024x65536, val_main_v40 (F := Ideal) X⟩, ⟨S1x65536, val_main_v46 (F := Ideal) X⟩] _ (ix2 r j) 0 (show 0 < 3 from by decide) S1x65536 (val_main_v45 (F := Ideal) X) rfl rfl 0 rfl
      (ix2 (0 : Fin 1) j) (fun b hb => match b with | ⟨0, _⟩ => absurd rfl hb | ⟨1, _⟩ => rfl) (by show 0 + 0 = r.val; omega)).trans ?_
    rw [val_main_v45_apply, newCenter_eq, center_eq, tail_eq]
    rfl
  · rw [if_neg h0]
    by_cases h1 : r.val = 1025
    · rw [if_pos h1]
      refine (concatenate_apply_piece (0 : Fin 2) [⟨S1x65536, val_main_v45 (F := Ideal) X⟩, ⟨S1024x65536, val_main_v40 (F := Ideal) X⟩, ⟨S1x65536, val_main_v46 (F := Ideal) X⟩] _ (ix2 r j) 2 (show 2 < 3 from by decide) S1x65536 (val_main_v46 (F := Ideal) X) rfl rfl 1025 rfl
        (ix2 (0 : Fin 1) j) (fun b hb => match b with | ⟨0, _⟩ => absurd rfl hb | ⟨1, _⟩ => rfl) (by show 1025 + 0 = r.val; omega)).trans ?_
      rw [val_main_v46_apply, newLast_eq, center_eq, tail_eq, lastRow_eq]
      have hr : r = (1025 : Fin 1026) := Fin.ext h1
      subst hr
      rfl
    · rw [if_neg h1]
      have hk : r.val - 1 < 1024 := by have := r.isLt; omega
      refine (concatenate_apply_piece (0 : Fin 2) [⟨S1x65536, val_main_v45 (F := Ideal) X⟩, ⟨S1024x65536, val_main_v40 (F := Ideal) X⟩, ⟨S1x65536, val_main_v46 (F := Ideal) X⟩] _ (ix2 r j) 1 (show 1 < 3 from by decide) S1024x65536 (val_main_v40 (F := Ideal) X) rfl rfl 1 rfl
        (ix2 (⟨r.val - 1, hk⟩ : Fin 1024) j) (fun b hb => match b with | ⟨0, _⟩ => absurd rfl hb | ⟨1, _⟩ => rfl)
        (by show 1 + (r.val - 1) = r.val; omega)).trans ?_
      rw [newMid_eq]
      refine congrArg₂ (· * ·) rfl (congrArg (fun r' : Fin 1026 => X (ix2 r' j)) (Fin.ext ?_))
      show 1 + (r.val - 1) = r.val
      omega

/-- The tail sum of the new column. -/
theorem newTail_eq (i : S65536.Idx) : val_main_v50 (F := Ideal) X i = tailAbs (newCol X (i 0)) := by
  rw [val_main_v50_apply]
  unfold tailAbs
  refine congrArg₂ (· + ·) rfl (Finset.sum_congr rfl fun k _ => ?_)
  rw [val_main_v49_apply, val_main_v48_apply]
  have e : idx_main_v48 (idx_main_v50 i k) = ix2 (n1 := 65536) (below k) (i 0) :=
    funext fun a => by match a with | ⟨0, _⟩ => rfl | ⟨1, _⟩ => rfl
  exact (congrArg (fun y => mag (val_main_v47 (F := Ideal) X y)) e).trans (congrArg mag (newCol_eq X (below k) (i 0)))

/-- Row 0 of the concatenation, flattened: the new centre of column `i`. -/
theorem newHead_eq (i : S65536.Idx) : val_main_v52 (F := Ideal) X i = newCol X (i 0) 0 := by
  rw [val_main_v52_apply, val_main_v51_apply]
  have e : idx_main_v51 (idx_main_v52 i) = ix2 (n1 := 65536) (0 : Fin 1026) (i 0) :=
    funext fun a => Fin.ext (by
      match a with
      | ⟨0, _⟩ => rfl
      | ⟨1, _⟩ => exact Nat.mod_eq_of_lt (i 0).isLt)
  exact (congrArg (val_main_v47 (F := Ideal) X) e).trans (newCol_eq X 0 (i 0))

theorem newHead_eq' (i : S65536.Idx) : val_main_v55 (F := Ideal) X i = newCol X (i 0) 0 := by
  rw [val_main_v55_apply, val_main_v54_apply]
  have e : idx_main_v54 (idx_main_v55 i) = ix2 (n1 := 65536) (0 : Fin 1026) (i 0) :=
    funext fun a => Fin.ext (by
      match a with
      | ⟨0, _⟩ => rfl
      | ⟨1, _⟩ => exact Nat.mod_eq_of_lt (i 0).isLt)
  exact (congrArg (val_main_v47 (F := Ideal) X) e).trans (newCol_eq X 0 (i 0))

/-! ## The reference's four results are the specification -/

theorem ref_new : val_main_v47 (F := Ideal) X = specNew X :=
  funext fun i => by rw [eq_ix2 i]; exact newCol_eq X _ _

theorem ref_min : val_main_v53 (F := Ideal) X = specMin X :=
  funext fun i => by rw [val_main_v53_apply, newHead_eq, newTail_eq]; rfl

theorem ref_max : val_main_v56 (F := Ideal) X = specMax X :=
  funext fun i => by rw [val_main_v56_apply, newHead_eq', newTail_eq]; rfl

theorem ref_true (T : S65536.Idx → EReal) : val_main_v57 (F := Ideal) T = specTrue T :=
  funext fun i => by
    rw [val_main_v57_apply, val_main_call6_v0_apply]
    rfl

end Cert.ReferenceIdeal.RefValue

end
-- ==== Proof.KernelLane.lean ====
/-
  The kernel body's arithmetic read lane by lane.

  The body holds one [1026, 1024] block `x0` of the term array.  Lane `q` of every [1, 1024] intermediate depends on
  column `q` of the block alone: the centre `x0 (0, q)`, the sum of all 1026 magnitudes of the column less the
  centre's magnitude, and from these two the scalars of ColumnMath.  The stored [1026, 1024] value has, in row `r`
  of lane `q`, the new column's row `r` — the row number read off an iota, the per-lane scalars broadcast down the rows.
-/
import proofs.«111873_j37529424233162_2_alg».proof.Proof.Gen.KernelIdeal.Skeleton
import proofs.«111873_j37529424233162_2_alg».proof.Proof.ColumnMath
import Idealize.ShloMosaic.Lib.Pipeline.Value
import Idealize.ShloMosaic.Lib.ValueIdx
import Idealize.ShloMosaic.PureOps.Ideal.Laws

set_option maxRecDepth 8192

noncomputable section

namespace Cert.KernelIdeal.Lane

open Cert.KernelIdeal Cert.KernelIdeal.Gen Cert.ZonoRelu
open Idealize.ShloMosaic Idealize.ShloMosaic.ValueIdx

/-- Column `q` of a block. -/
def blkCol (x0 : Vec Ideal S1026x1024 .f32) (q : Fin 1024) : Fin 1026 → EReal := fun r => x0 (ix2 r q)

variable (x0 : Vec Ideal S1026x1024 .f32)

/-- Row 0 of the block, lane `q`: the column's centre. -/
theorem center_lane (q : Fin 1024) : k0_pay2 (F := Ideal) x0 (ix2 (0 : Fin 1) q) = x0 (ix2 (0 : Fin 1026) q) := by
  unfold k0_pay2
  exact extractStridedSlice_apply ![0, 0] x0 slices_S1026x1024_o0_0_S1x1024 (ix2 (0 : Fin 1) q) (ix2 (0 : Fin 1026) q)
    (fun a => match a with
      | ⟨0, _⟩ => by show (0 : Nat) = 0 + 0; rfl
      | ⟨1, _⟩ => by show q.val = 0 + q.val; omega)

/-- The sum over all rows of a [1026, 1024] value, reshaped to one row, at lane `q` (for any witnesses of the
    reduction's side conditions). -/
theorem colSum_gen (v : FVec Ideal S1026x1024 .f32) (hφ : FKind.Formats .f32)
    (hacc : (0x00000000#32 : BitVec 32) = FKind.add.neutral .f32 hφ) (q : Fin 1024) :
    shapeCast S1x1024 (multiReduction (F := Ideal) .add [0] S1024 v 0x00000000#32 reduces_S1026x1024_S1024 hφ hacc)
        shapeCasts_S1024_S1x1024 (ix2 (0 : Fin 1) q)
      = ∑ r : Fin 1026, v (ix2 r q) := by
  rw [shapeCast_apply _ shapeCasts_S1024_S1x1024 (ix2 (0 : Fin 1) q) (ix1 q)
    (by rewrite [Shape.rowMajor_val_two, Shape.rowMajor_val_one]; show q.val = 0 * 1024 + q.val; omega)]
  refine (Ideal.multiReduction_add_single v 0x00000000#32 reduces_S1026x1024_S1024 hφ hacc (ix1 q)).trans ?_
  refine Finset.sum_congr rfl fun r _ => ?_
  exact congrArg v (funext fun a => Fin.ext (by match a with | ⟨0, _⟩ => rfl | ⟨1, _⟩ => rfl))

theorem colSum_lane (v : FVec Ideal S1026x1024 .f32) (q : Fin 1024) :
    shapeCast S1x1024 (multiReduction (F := Ideal) .add [0] S1024 v 0x00000000#32 reduces_S1026x1024_S1024 (.inl rfl) rfl)
        shapeCasts_S1024_S1x1024 (ix2 (0 : Fin 1) q)
      = ∑ r : Fin 1026, v (ix2 r q) :=
  colSum_gen v (.inl rfl) rfl q

/-- All magnitudes of the column less the centre's. -/
theorem tail_lane (q : Fin 1024) :
    k0_pay3 (F := Ideal) x0 (ix2 (0 : Fin 1) q) = fullMinusHead (blkCol x0 q) (x0 (ix2 (0 : Fin 1026) q)) := by
  unfold k0_pay3
  show shapeCast S1x1024 (multiReduction (F := Ideal) .add [0] S1024 (absf x0) 0x00000000#32 reduces_S1026x1024_S1024 (.inl rfl) rfl)
        shapeCasts_S1024_S1x1024 (ix2 (0 : Fin 1) q) - FloatOps.absf (k0_pay2 (F := Ideal) x0 (ix2 (0 : Fin 1) q)) = _
  rw [colSum_lane, center_lane]
  rfl

/-- The two end points' signs, summed: the kernel's sign is the order's sign. -/
theorem sgn_lane (i : S1x1024.Idx) :
    k0_pay6 (F := Ideal) x0 i = sgn (k0_pay2 (F := Ideal) x0 i) (k0_pay3 (F := Ideal) x0 i) := by
  unfold k0_pay6 sgn
  exact congrArg₂ (· + ·) (Ideal.jnp_sign_eq_sign_f32 _) (Ideal.jnp_sign_eq_sign_f32 _)

theorem coef_lane (i : S1x1024.Idx) :
    k0_pay7 (F := Ideal) x0 i = coef (k0_pay2 (F := Ideal) x0 i) (k0_pay3 (F := Ideal) x0 i) := rfl

theorem bias_lane (i : S1x1024.Idx) :
    k0_pay8 (F := Ideal) x0 i = bias (k0_pay2 (F := Ideal) x0 i) (k0_pay3 (F := Ideal) x0 i) := rfl

theorem absBias_lane (i : S1x1024.Idx) :
    k0_pay9 (F := Ideal) x0 i = mag (bias (k0_pay2 (F := Ideal) x0 i) (k0_pay3 (F := Ideal) x0 i)) := rfl

theorem crossing_lane (i : S1x1024.Idx) :
    k0_pay10 (F := Ideal) x0 i = crossing (k0_pay2 (F := Ideal) x0 i) (k0_pay3 (F := Ideal) x0 i) := by
  show FloatOps.cmpf .oeq (k0_pay6 (F := Ideal) x0 i) zero = _
  rw [sgn_lane]; rfl

/-- The multiplier, per lane. -/
theorem mult_lane (i : S1x1024.Idx) :
    k0_pay12 (F := Ideal) (k0_pay6 x0) (k0_pay7 x0) (k0_pay10 x0) k0_pay11 i
      = mult (k0_pay2 (F := Ideal) x0 i) (k0_pay3 (F := Ideal) x0 i) := by
  show Scalar.select (k0_pay10 (F := Ideal) x0 i) (k0_pay7 (F := Ideal) x0 i)
      (Scalar.select (FloatOps.cmpf .oge (k0_pay6 (F := Ideal) x0 i) one) one zero) = _
  rw [crossing_lane, coef_lane, sgn_lane]; rfl

/-- The new centre, per lane. -/
theorem newCenter_lane (i : S1x1024.Idx) :
    k0_pay13 (F := Ideal) (k0_pay2 x0) (k0_pay6 x0) (k0_pay7 x0) (k0_pay8 x0) (k0_pay10 x0) k0_pay11 i
      = newCenter (k0_pay2 (F := Ideal) x0 i) (k0_pay3 (F := Ideal) x0 i) := by
  show k0_pay12 (F := Ideal) (k0_pay6 x0) (k0_pay7 x0) (k0_pay10 x0) k0_pay11 i * k0_pay2 (F := Ideal) x0 i
      + Scalar.select (k0_pay10 (F := Ideal) x0 i) (k0_pay8 (F := Ideal) x0 i) zero = _
  rw [mult_lane, crossing_lane, bias_lane]; rfl

/-! ## The stored [1026, 1024] value, row by row -/

/-- A one-row value broadcast down the 1026 rows, read at row `r`, lane `q`: the value at lane `q`. -/
theorem rows_apply {α : Type} (v : S1x1024.Idx → α) (r : Fin 1026) (q : Fin 1024) :
    broadcastTo S1026x1024 (shapeCast S1x1024 v shapeCasts_S1x1024_S1x1024) broadcasts_S1x1024_S1026x1024 (ix2 r q)
      = v (ix2 (0 : Fin 1) q) := by
  rw [shapeCast_self]
  exact broadcastTo_apply v broadcasts_S1x1024_S1026x1024 (ix2 r q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])

theorem rows_eq {α : Type} (v : S1x1024.Idx → α) :
    broadcastTo S1026x1024 (shapeCast S1x1024 v shapeCasts_S1x1024_S1x1024) broadcasts_S1x1024_S1026x1024
      = fun i => v (ix2 (0 : Fin 1) (i 1)) :=
  funext fun i => by rw [eq_ix2 i]; exact rows_apply v _ _

/-- The iota along the rows reads the row number. -/
theorem rowNumber_eq :
    iota .tc S1026x1024 32 [0] iota_S1026x1024_d0_w32 = fun i => BitVec.ofNat 32 (i 0).val :=
  funext fun i => iota_single_apply _ _ _ _ _ i

/-- Comparing two small numbers as 32-bit words compares the numbers. -/
theorem word_eq_iff (n k : Nat) (hn : n < 4294967296) (hk : k < 4294967296) :
    IntOp.cmpi .eq (BitVec.ofNat 32 n) (BitVec.ofNat 32 k) = BitVec.ofBool (decide (n = k)) := by
  unfold IntOp.cmpi
  by_cases h : n = k
  · subst h; simp
  · have hne : BitVec.ofNat 32 n ≠ BitVec.ofNat 32 k := fun e => h (by
      have := congrArg BitVec.toNat e
      simp only [BitVec.toNat_ofNat] at this
      rwa [Nat.mod_eq_of_lt hn, Nat.mod_eq_of_lt hk] at this)
    show BitVec.ofBool (BitVec.ofNat 32 n == BitVec.ofNat 32 k) = BitVec.ofBool (decide (n = k))
    rw [show (BitVec.ofNat 32 n == BitVec.ofNat 32 k) = false from beq_false_of_ne hne, decide_eq_false h]

/-- The stored value at row `r`, lane `q`, for any per-lane operands: the row number selects the multiplier's
    magnitude on the last row, and the additive term of row 0 or of the last row. -/
theorem stored_apply (v29 v39 v44 v45 : FVec Ideal S1x1024 .f32) (v47 : IVec S1x1024 1) (v48 : FVec Ideal S1x1024 .f32)
    (r : Fin 1026) (q : Fin 1024) :
    k0_pay14 (F := Ideal) x0 v29 v39 v44 v45 v47 v48 (ix2 r q)
      = Scalar.select (IntOp.cmpi .eq (BitVec.ofNat 32 r.val) (BitVec.ofNat 32 1025))
            (mag (k0_pay12 (F := Ideal) v29 v39 v47 v48 (ix2 (0 : Fin 1) q)))
            (k0_pay12 (F := Ideal) v29 v39 v47 v48 (ix2 (0 : Fin 1) q)) * x0 (ix2 r q)
        + Scalar.select (IntOp.cmpi .eq (BitVec.ofNat 32 r.val) (BitVec.ofNat 32 0))
            (Scalar.select (v47 (ix2 (0 : Fin 1) q)) (v44 (ix2 (0 : Fin 1) q)) zero)
            (Scalar.select (IntOp.cmpi .eq (BitVec.ofNat 32 r.val) (BitVec.ofNat 32 1025))
              (Scalar.select (v47 (ix2 (0 : Fin 1) q)) (v45 (ix2 (0 : Fin 1) q)) zero) zero) := by
  unfold k0_pay14
  show Scalar.select (IntOp.cmpi .eq (iota .tc S1026x1024 32 [0] iota_S1026x1024_d0_w32 (ix2 r q)) 1025#32)
          (broadcastTo S1026x1024 (shapeCast S1x1024 (absf (k0_pay12 (F := Ideal) v29 v39 v47 v48)) shapeCasts_S1x1024_S1x1024)
            broadcasts_S1x1024_S1026x1024 (ix2 r q))
          (broadcastTo S1026x1024 (shapeCast S1x1024 (k0_pay12 (F := Ideal) v29 v39 v47 v48) shapeCasts_S1x1024_S1x1024)
            broadcasts_S1x1024_S1026x1024 (ix2 r q))
        * x0 (ix2 r q)
      + Scalar.select (IntOp.cmpi .eq (iota .tc S1026x1024 32 [0] iota_S1026x1024_d0_w32 (ix2 r q)) 0#32)
          (broadcastTo S1026x1024 (shapeCast S1x1024 (select v47 v44 (broadcast S1x1024 zero)) shapeCasts_S1x1024_S1x1024)
            broadcasts_S1x1024_S1026x1024 (ix2 r q))
          (Scalar.select (IntOp.cmpi .eq (iota .tc S1026x1024 32 [0] iota_S1026x1024_d0_w32 (ix2 r q)) 1025#32)
            (broadcastTo S1026x1024 (shapeCast S1x1024 (select v47 v45 (broadcast S1x1024 zero)) shapeCasts_S1x1024_S1x1024)
              broadcasts_S1x1024_S1026x1024 (ix2 r q))
            zero) = _
  rw [rows_apply, rows_apply, rows_apply, rows_apply, iota_single_apply]
  rfl

/-- Row `r`, lane `q` of the stored value is row `r` of the column's relaxation, with the tail sum spelt as all
    magnitudes less the centre's. -/
theorem newRow_lane (r : Fin 1026) (q : Fin 1024) :
    k0_pay14 (F := Ideal) x0 (k0_pay6 x0) (k0_pay7 x0) (k0_pay8 x0) (k0_pay9 x0) (k0_pay10 x0) k0_pay11 (ix2 r q)
      = newRow (blkCol x0 q) (fullMinusHead (blkCol x0 q) (x0 (ix2 (0 : Fin 1026) q))) r := by
  rw [stored_apply, mult_lane, crossing_lane, bias_lane, absBias_lane, center_lane, tail_lane,
    word_eq_iff r.val 1025 (by have := r.isLt; omega) (by decide), word_eq_iff r.val 0 (by have := r.isLt; omega) (by decide)]
  unfold newRow
  by_cases h0 : r.val = 0
  · have h1 : ¬ r.val = 1025 := by omega
    have b0 : BitVec.ofBool (decide (r.val = 0)) = 1#1 := by simp [h0]
    have b1 : BitVec.ofBool (decide (r.val = 1025)) = 0#1 := by simp [h1]
    simp only [b0, b1, select_one, select_zero]
    rw [if_pos h0]
    have hr : r = 0 := Fin.ext h0
    rw [hr]
    rfl
  · by_cases h1 : r.val = 1025
    · have b0 : BitVec.ofBool (decide (r.val = 0)) = 0#1 := by simp [h0]
      have b1 : BitVec.ofBool (decide (r.val = 1025)) = 1#1 := by simp [h1]
      simp only [b0, b1, select_one, select_zero]
      rw [if_neg h0, if_pos h1]
      rfl
    · have b0 : BitVec.ofBool (decide (r.val = 0)) = 0#1 := by simp [h0]
      have b1 : BitVec.ofBool (decide (r.val = 1025)) = 0#1 := by simp [h1]
      simp only [b0, b1, select_zero]
      rw [if_neg h0, if_neg h1, zero_eq, add_zero]
      rfl

/-! ## The two bounds, per lane -/

/-- The sum of the stored value's magnitudes over all rows less the new centre's magnitude. -/
theorem newTail_lane (q : Fin 1024) :
    k0_pay15 (F := Ideal) x0 (k0_pay2 x0) (k0_pay6 x0) (k0_pay7 x0) (k0_pay8 x0) (k0_pay9 x0) (k0_pay10 x0) k0_pay11 (ix2 (0 : Fin 1) q)
      = fullMinusHead (newRow (blkCol x0 q) (fullMinusHead (blkCol x0 q) (x0 (ix2 (0 : Fin 1026) q))))
          (newCenter (x0 (ix2 (0 : Fin 1026) q)) (fullMinusHead (blkCol x0 q) (x0 (ix2 (0 : Fin 1026) q)))) := by
  unfold k0_pay15
  show shapeCast S1x1024 (multiReduction (F := Ideal) .add [0] S1024
          (absf (k0_pay14 (F := Ideal) x0 (k0_pay6 x0) (k0_pay7 x0) (k0_pay8 x0) (k0_pay9 x0) (k0_pay10 x0) k0_pay11))
          0x00000000#32 reduces_S1026x1024_S1024 (.inl rfl) rfl) shapeCasts_S1024_S1x1024 (ix2 (0 : Fin 1) q)
        - FloatOps.absf (k0_pay13 (F := Ideal) (k0_pay2 x0) (k0_pay6 x0) (k0_pay7 x0) (k0_pay8 x0) (k0_pay10 x0) k0_pay11 (ix2 (0 : Fin 1) q)) = _
  rw [colSum_lane, newCenter_lane, center_lane, tail_lane]
  unfold fullMinusHead
  refine congrArg₂ (· - ·) (Finset.sum_congr rfl fun r _ => ?_) rfl
  show mag (k0_pay14 (F := Ideal) x0 (k0_pay6 x0) (k0_pay7 x0) (k0_pay8 x0) (k0_pay9 x0) (k0_pay10 x0) k0_pay11 (ix2 r q)) = _
  rw [newRow_lane]
  rfl

/-- The lower bound, per lane. -/
theorem lower_lane (q : Fin 1024) :
    k0_pay16 (F := Ideal) x0 (k0_pay2 x0) (k0_pay6 x0) (k0_pay7 x0) (k0_pay8 x0) (k0_pay9 x0) (k0_pay10 x0) k0_pay11 (ix2 (0 : Fin 1) q)
      = newCenter (x0 (ix2 (0 : Fin 1026) q)) (fullMinusHead (blkCol x0 q) (x0 (ix2 (0 : Fin 1026) q)))
        - fullMinusHead (newRow (blkCol x0 q) (fullMinusHead (blkCol x0 q) (x0 (ix2 (0 : Fin 1026) q))))
          (newCenter (x0 (ix2 (0 : Fin 1026) q)) (fullMinusHead (blkCol x0 q) (x0 (ix2 (0 : Fin 1026) q)))) := by
  show k0_pay13 (F := Ideal) (k0_pay2 x0) (k0_pay6 x0) (k0_pay7 x0) (k0_pay8 x0) (k0_pay10 x0) k0_pay11 (ix2 (0 : Fin 1) q)
      - k0_pay15 (F := Ideal) x0 (k0_pay2 x0) (k0_pay6 x0) (k0_pay7 x0) (k0_pay8 x0) (k0_pay9 x0) (k0_pay10 x0) k0_pay11 (ix2 (0 : Fin 1) q) = _
  rw [newTail_lane, newCenter_lane, center_lane, tail_lane]

/-- The upper bound, per lane. -/
theorem upper_lane (q : Fin 1024) :
    k0_pay17 (F := Ideal) x0 (k0_pay2 x0) (k0_pay6 x0) (k0_pay7 x0) (k0_pay8 x0) (k0_pay9 x0) (k0_pay10 x0) k0_pay11 (ix2 (0 : Fin 1) q)
      = newCenter (x0 (ix2 (0 : Fin 1026) q)) (fullMinusHead (blkCol x0 q) (x0 (ix2 (0 : Fin 1026) q)))
        + fullMinusHead (newRow (blkCol x0 q) (fullMinusHead (blkCol x0 q) (x0 (ix2 (0 : Fin 1026) q))))
          (newCenter (x0 (ix2 (0 : Fin 1026) q)) (fullMinusHead (blkCol x0 q) (x0 (ix2 (0 : Fin 1026) q)))) := by
  show k0_pay13 (F := Ideal) (k0_pay2 x0) (k0_pay6 x0) (k0_pay7 x0) (k0_pay8 x0) (k0_pay10 x0) k0_pay11 (ix2 (0 : Fin 1) q)
      + k0_pay15 (F := Ideal) x0 (k0_pay2 x0) (k0_pay6 x0) (k0_pay7 x0) (k0_pay8 x0) (k0_pay9 x0) (k0_pay10 x0) k0_pay11 (ix2 (0 : Fin 1) q) = _
  rw [newTail_lane, newCenter_lane, center_lane, tail_lane]

/-- The concrete activation's ReLU, per lane. -/
theorem relu_lane (x1 : Vec Ideal S1x1024 .f32) (i : S1x1024.Idx) :
    k0_pay1 (F := Ideal) x1 i = max (x1 i) zero := by
  unfold k0_pay1
  rw [shapeCast_self]
  rfl

/-! ## The body's spellings against the specification's, for a column of real entries -/

/-- The new centre and the new tail sum of a column of real entries, as the body spells them (all magnitudes less
    row 0's), are the specification's. -/
theorem bounds_gen (q : Fin 1024) (col : Fin 1026 → EReal)
    (hcol : blkCol x0 q = col) (hreal : ∀ r, IsReal (col r)) :
    newCenter (x0 (ix2 (0 : Fin 1026) q)) (fullMinusHead (blkCol x0 q) (x0 (ix2 (0 : Fin 1026) q)))
      = newRow col (tailAbs col) 0
    ∧ fullMinusHead (newRow (blkCol x0 q) (fullMinusHead (blkCol x0 q) (x0 (ix2 (0 : Fin 1026) q))))
        (newCenter (x0 (ix2 (0 : Fin 1026) q)) (fullMinusHead (blkCol x0 q) (x0 (ix2 (0 : Fin 1026) q))))
      = tailAbs (newRow col (tailAbs col)) := by
  subst hcol
  have e : fullMinusHead (blkCol x0 q) (x0 (ix2 (0 : Fin 1026) q)) = tailAbs (blkCol x0 q) :=
    fullMinusHead_eq_tailAbs (blkCol x0 q) (hreal 0)
  rw [e]
  have hr : IsReal (newCenter (blkCol x0 q 0) (tailAbs (blkCol x0 q))) := newCenter_real (hreal 0) (tailAbs_real hreal)
  refine ⟨?_, ?_⟩
  · exact (newRow_zero (blkCol x0 q) (tailAbs (blkCol x0 q))).symm
  · exact newTail_eq (blkCol x0 q) (tailAbs (blkCol x0 q)) hr

end Cert.KernelIdeal.Lane

end
-- ==== Proof.KernelArrays.lean ====
/-
  From blocks to arrays: what the kernel's four result arrays hold after the run.

  Grid point `t` (of 64) works on columns `1024 t … 1024 t + 1023`: every window's block index is `(0, t)`.  Lane `q`
  of point `t` is column `1024 t + q` of the term array, so by the lane-by-lane reading of the body each point writes
  back the specification's block, the blocks tile the arrays, and each array ends at the specification.  The tail sums
  are spelt in the body as "all rows less row 0", which is the specification's tail sum because every entry of the term
  array is a real number (the hypothesis `hX`).
-/
import proofs.«111873_j37529424233162_2_alg».proof.Proof.Gen.KernelIdeal.Frame
import proofs.«111873_j37529424233162_2_alg».proof.Proof.KernelLane
import proofs.«111873_j37529424233162_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Lane Cert.ZonoRelu

variable (m : (ℓ : Loc nD τ sig) → Buf (Elt Ideal) ℓ) (ρ : Dev nD → PrngReg)

theorem zeroOff : (![0, 0] : Fin 2 → Nat) = fun _ => 0 := funext fun a => by fin_cases a <;> rfl

/-- Every window's block at point `t` has index `(0, t)`. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 64 := t.isLt

/-- The column of the arrays that lane `q` of point `t` is. -/
def colAt (t : Fin cfg0.N) (q : Fin 1024) : Fin 65536 :=
  ⟨t.val * 1024 + q.val, by have := point_lt t; have := q.isLt; omega⟩

/-- A one-row [1, 65536] array from a [65536] vector. -/
def asRow (f : (⟨1, ![65536]⟩ : Shape).Idx → EReal) : S1x65536.Idx → EReal := fun i => f (ix1 (i 1))

/-- The term array as the region finds it. -/
abbrev terms (c : Dev nD) : S1026x65536.Idx → EReal := V m c main_arg0

/-! ## The input blocks -/

/-- Entry `(r, q)` of point `t`'s block of the term array is entry `(r, 1024 t + q)` of the array. -/
theorem termBlock_apply (c : Dev nD) (t : Fin cfg0.N) (r : Fin 1026) (q : Fin 1024) :
    (iblk m c 0 t : S1026x1024.Idx → EReal) (ix2 r q) = terms m c (ix2 r (colAt t q)) := by
  obtain ⟨e0, e1, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 2) * 1026 + 1 * r.val = r.val; rw [e0]; omega
  | ⟨1, _⟩ => show win0_0.index t (1 : Fin 2) * 1024 + 1 * q.val = t.val * 1024 + q.val; rw [e1]; omega

/-- Column `q` of point `t`'s block is column `1024 t + q` of the array. -/
theorem blkCol_eq (c : Dev nD) (t : Fin cfg0.N) (q : Fin 1024) :
    blkCol (iblk m c 0 t) q = colOf (terms m c) (colAt t q) :=
  funext fun r => termBlock_apply m c t r q

/-- The tail sum as the body spells it is the specification's, the entries being real. -/
theorem tail_eq (c : Dev nD) (hX : ∀ i, IsReal (terms m c i)) (t : Fin cfg0.N) (q : Fin 1024) :
    fullMinusHead (blkCol (iblk m c 0 t) q) ((iblk m c 0 t : S1026x1024.Idx → EReal) (ix2 (0 : Fin 1026) q))
      = tailOf (terms m c) (colAt t q) := by
  rw [blkCol_eq, termBlock_apply]
  exact fullMinusHead_eq_tailAbs _ (hX _)

/-! ## Output window 2: the new term array -/

theorem flushedNew (c : Dev nD) (hX : ∀ i, IsReal (terms m c i)) (t : Fin cfg0.N) :
    (dats m 0 c).flushed 2 t = ((cfg0.win 2).blk t).view.read (Elt Ideal) (specNew (terms m c)) := by
  obtain ⟨-, -, -, -, e0, e1, -⟩ := index_facts t
  show (cfg0.win 2).cut (grid0.coords t) ((dats m 0 c).after 2 t) = _
  rw [after0_2]
  unfold out0_2
  rw [View.canon_unit_zero zeroOff]
  simp only [View.ld_unit_zero (S := S1026x1024) zeroOff]
  funext y
  obtain ⟨r, q, rfl⟩ : ∃ (r : Fin 1026) (q : Fin 1024), y = ix2 r q := ⟨y 0, y 1, eq_ix2 y⟩
  refine (newRow_lane (iblk m c 0 t) r q).trans ?_
  rw [tail_eq m c hX, blkCol_eq]
  show newCol (terms m c) (colAt t q) r = specNew (terms m c) (((cfg0.win 2).blk t).view.emb (ix2 r q))
  have he : ((cfg0.win 2).blk t).view.emb (ix2 r q) = ix2 r (colAt t q) := by
    funext a; apply Fin.ext
    match a with
    | ⟨0, _⟩ => show win0_2.index t (0 : Fin 2) * 1026 + 1 * r.val = r.val; rw [e0]; omega
    | ⟨1, _⟩ => show win0_2.index t (1 : Fin 2) * 1024 + 1 * q.val = t.val * 1024 + q.val; rw [e1]; omega
  rw [he]
  rfl

/-- The point whose block holds column `j`. -/
def pointOf (j : Fin 65536) : Fin cfg0.N := ⟨j.val / 1024, by have := j.isLt; show j.val / 1024 < 64; omega⟩

theorem coverNew (i : S1026x65536.Idx) :
    ∃ t : Fin cfg0.N, (cfg0.win 2).flush t = true ∧ i ∈ ((cfg0.win 2).blk t).view.set := by
  refine ⟨pointOf (i 1), flush0_2 _, ?_⟩
  obtain ⟨-, -, -, -, e0, e1, -⟩ := index_facts (pointOf (i 1))
  show i ∈ ((View.whole main_v1_0).slice (win0_2.rect (pointOf (i 1)))).set
  rw [View.set_slice_whole, Rect.mem_set_unit]
  intro a
  have h0 : (i 0).val < 1026 := (i 0).isLt
  have h1 : (i 1).val < 65536 := (i 1).isLt
  match a with
  | ⟨0, _⟩ =>
    show win0_2.index (pointOf (i 1)) (0 : Fin 2) * 1026 ≤ (i 0).val ∧ (i 0).val < win0_2.index (pointOf (i 1)) (0 : Fin 2) * 1026 + 1026
    rw [e0]; omega
  | ⟨1, _⟩ =>
    show win0_2.index (pointOf (i 1)) (1 : Fin 2) * 1024 ≤ (i 1).val ∧ (i 1).val < win0_2.index (pointOf (i 1)) (1 : Fin 2) * 1024 + 1024
    rw [e1]; show (i 1).val / 1024 * 1024 ≤ (i 1).val ∧ (i 1).val < (i 1).val / 1024 * 1024 + 1024; omega

/-- The new term array after the run. -/
theorem finalNew (c : Dev nD) (hX : ∀ i, IsReal (terms m c i)) :
    (dats m 0 c).arrAt 2 cfg0.N = specNew (terms m c) :=
  (dats m 0 c).arrAt_eq_of_cover 2 (specNew (terms m c)) (fun t _ => flushedNew m c hX t) (coverNew)

/-! ## Output windows 3 and 4: the two bounds, as one-row arrays -/

/-- Where lane `q` of point `t`'s one-row block sits in a [1, 65536] array. -/
theorem rowEmb3 (t : Fin cfg0.N) (q : Fin 1024) :
    ((cfg0.win 3).blk t).view.emb (ix2 (0 : Fin 1) q) = ix2 (0 : Fin 1) (colAt t q) := by
  obtain ⟨-, -, -, -, -, -, e0, e1, -⟩ := index_facts t
  funext a; apply Fin.ext
  match a with
  | ⟨0, _⟩ => show win0_3.index t (0 : Fin 2) * 1 + 1 * 0 = 0; rw [e0]
  | ⟨1, _⟩ => show win0_3.index t (1 : Fin 2) * 1024 + 1 * q.val = t.val * 1024 + q.val; rw [e1]; omega

theorem rowEmb4 (t : Fin cfg0.N) (q : Fin 1024) :
    ((cfg0.win 4).blk t).view.emb (ix2 (0 : Fin 1) q) = ix2 (0 : Fin 1) (colAt t q) := by
  obtain ⟨-, -, -, -, -, -, -, -, e0, e1, -⟩ := index_facts t
  funext a; apply Fin.ext
  match a with
  | ⟨0, _⟩ => show win0_4.index t (0 : Fin 2) * 1 + 1 * 0 = 0; rw [e0]
  | ⟨1, _⟩ => show win0_4.index t (1 : Fin 2) * 1024 + 1 * q.val = t.val * 1024 + q.val; rw [e1]; omega

theorem rowEmb5 (t : Fin cfg0.N) (q : Fin 1024) :
    ((cfg0.win 5).blk t).view.emb (ix2 (0 : Fin 1) q) = ix2 (0 : Fin 1) (colAt t q) := by
  obtain ⟨-, -, -, -, -, -, -, -, -, -, e0, e1⟩ := index_facts t
  funext a; apply Fin.ext
  match a with
  | ⟨0, _⟩ => show win0_5.index t (0 : Fin 2) * 1 + 1 * 0 = 0; rw [e0]
  | ⟨1, _⟩ => show win0_5.index t (1 : Fin 2) * 1024 + 1 * q.val = t.val * 1024 + q.val; rw [e1]; omega

theorem flushedMin (c : Dev nD) (hX : ∀ i, IsReal (terms m c i)) (t : Fin cfg0.N) :
    (dats m 0 c).flushed 3 t = ((cfg0.win 3).blk t).view.read (Elt Ideal) (asRow (specMin (terms m c))) := by
  show (cfg0.win 3).cut (grid0.coords t) ((dats m 0 c).after 3 t) = _
  rw [after0_3]
  unfold out0_3
  rw [View.canon_unit_zero zeroOff]
  simp only [View.ld_unit_zero (S := S1026x1024) zeroOff]
  funext y
  obtain ⟨p, q, rfl⟩ : ∃ (p : Fin 1) (q : Fin 1024), y = ix2 p q := ⟨y 0, y 1, eq_ix2 y⟩
  obtain rfl : p = 0 := Subsingleton.elim _ _
  obtain ⟨h1, h2⟩ := bounds_gen (iblk m c 0 t) q (colOf (terms m c) (colAt t q)) (blkCol_eq m c t q) (fun r => hX _)
  refine ((lower_lane (iblk m c 0 t) q).trans (congrArg₂ (fun a b : EReal => a - b) h1 h2)).trans ?_
  exact (congrArg (asRow (specMin (terms m c))) (rowEmb3 t q)).symm

theorem flushedMax (c : Dev nD) (hX : ∀ i, IsReal (terms m c i)) (t : Fin cfg0.N) :
    (dats m 0 c).flushed 4 t = ((cfg0.win 4).blk t).view.read (Elt Ideal) (asRow (specMax (terms m c))) := by
  show (cfg0.win 4).cut (grid0.coords t) ((dats m 0 c).after 4 t) = _
  rw [after0_4]
  unfold out0_4
  rw [View.canon_unit_zero zeroOff]
  simp only [View.ld_unit_zero (S := S1026x1024) zeroOff]
  funext y
  obtain ⟨p, q, rfl⟩ : ∃ (p : Fin 1) (q : Fin 1024), y = ix2 p q := ⟨y 0, y 1, eq_ix2 y⟩
  obtain rfl : p = 0 := Subsingleton.elim _ _
  obtain ⟨h1, h2⟩ := bounds_gen (iblk m c 0 t) q (colOf (terms m c) (colAt t q)) (blkCol_eq m c t q) (fun r => hX _)
  refine ((upper_lane (iblk m c 0 t) q).trans (congrArg₂ (fun a b : EReal => a + b) h1 h2)).trans ?_
  exact (congrArg (asRow (specMax (terms m c))) (rowEmb4 t q)).symm

/-- A one-row array is tiled by the 64 one-row blocks. -/
theorem coverRow3 (i : S1x65536.Idx) :
    ∃ t : Fin cfg0.N, (cfg0.win 3).flush t = true ∧ i ∈ ((cfg0.win 3).blk t).view.set := by
  refine ⟨pointOf (i 1), flush0_3 _, ?_⟩
  obtain ⟨-, -, -, -, -, -, e0, e1, -⟩ := index_facts (pointOf (i 1))
  show i ∈ ((View.whole main_v1_1).slice (win0_3.rect (pointOf (i 1)))).set
  rw [View.set_slice_whole, Rect.mem_set_unit]
  intro a
  have h0 : (i 0).val < 1 := (i 0).isLt
  have h1 : (i 1).val < 65536 := (i 1).isLt
  match a with
  | ⟨0, _⟩ =>
    show win0_3.index (pointOf (i 1)) (0 : Fin 2) * 1 ≤ (i 0).val ∧ (i 0).val < win0_3.index (pointOf (i 1)) (0 : Fin 2) * 1 + 1
    rw [e0]; omega
  | ⟨1, _⟩ =>
    show win0_3.index (pointOf (i 1)) (1 : Fin 2) * 1024 ≤ (i 1).val ∧ (i 1).val < win0_3.index (pointOf (i 1)) (1 : Fin 2) * 1024 + 1024
    rw [e1]; show (i 1).val / 1024 * 1024 ≤ (i 1).val ∧ (i 1).val < (i 1).val / 1024 * 1024 + 1024; omega

theorem coverRow4 (i : S1x65536.Idx) :
    ∃ t : Fin cfg0.N, (cfg0.win 4).flush t = true ∧ i ∈ ((cfg0.win 4).blk t).view.set := by
  refine ⟨pointOf (i 1), flush0_4 _, ?_⟩
  obtain ⟨-, -, -, -, -, -, -, -, e0, e1, -⟩ := index_facts (pointOf (i 1))
  show i ∈ ((View.whole main_v1_2).slice (win0_4.rect (pointOf (i 1)))).set
  rw [View.set_slice_whole, Rect.mem_set_unit]
  intro a
  have h0 : (i 0).val < 1 := (i 0).isLt
  have h1 : (i 1).val < 65536 := (i 1).isLt
  match a with
  | ⟨0, _⟩ =>
    show win0_4.index (pointOf (i 1)) (0 : Fin 2) * 1 ≤ (i 0).val ∧ (i 0).val < win0_4.index (pointOf (i 1)) (0 : Fin 2) * 1 + 1
    rw [e0]; omega
  | ⟨1, _⟩ =>
    show win0_4.index (pointOf (i 1)) (1 : Fin 2) * 1024 ≤ (i 1).val ∧ (i 1).val < win0_4.index (pointOf (i 1)) (1 : Fin 2) * 1024 + 1024
    rw [e1]; show (i 1).val / 1024 * 1024 ≤ (i 1).val ∧ (i 1).val < (i 1).val / 1024 * 1024 + 1024; omega

theorem coverRow5 (i : S1x65536.Idx) :
    ∃ t : Fin cfg0.N, (cfg0.win 5).flush t = true ∧ i ∈ ((cfg0.win 5).blk t).view.set := by
  refine ⟨pointOf (i 1), flush0_5 _, ?_⟩
  obtain ⟨-, -, -, -, -, -, -, -, -, -, e0, e1⟩ := index_facts (pointOf (i 1))
  show i ∈ ((View.whole main_v1_3).slice (win0_5.rect (pointOf (i 1)))).set
  rw [View.set_slice_whole, Rect.mem_set_unit]
  intro a
  have h0 : (i 0).val < 1 := (i 0).isLt
  have h1 : (i 1).val < 65536 := (i 1).isLt
  match a with
  | ⟨0, _⟩ =>
    show win0_5.index (pointOf (i 1)) (0 : Fin 2) * 1 ≤ (i 0).val ∧ (i 0).val < win0_5.index (pointOf (i 1)) (0 : Fin 2) * 1 + 1
    rw [e0]; omega
  | ⟨1, _⟩ =>
    show win0_5.index (pointOf (i 1)) (1 : Fin 2) * 1024 ≤ (i 1).val ∧ (i 1).val < win0_5.index (pointOf (i 1)) (1 : Fin 2) * 1024 + 1024
    rw [e1]; show (i 1).val / 1024 * 1024 ≤ (i 1).val ∧ (i 1).val < (i 1).val / 1024 * 1024 + 1024; omega

theorem finalMin (c : Dev nD) (hX : ∀ i, IsReal (terms m c i)) :
    (dats m 0 c).arrAt 3 cfg0.N = asRow (specMin (terms m c)) :=
  (dats m 0 c).arrAt_eq_of_cover 3 (asRow (specMin (terms m c))) (fun t _ => flushedMin m c hX t) (coverRow3)

theorem finalMax (c : Dev nD) (hX : ∀ i, IsReal (terms m c i)) :
    (dats m 0 c).arrAt 4 cfg0.N = asRow (specMax (terms m c)) :=
  (dats m 0 c).arrAt_eq_of_cover 4 (asRow (specMax (terms m c))) (fun t _ => flushedMax m c hX t) (coverRow4)

/-! ## Output window 5: the concrete activations' ReLU -/

/-- The one-row array the region finds in window 1: the activations vector reshaped by the host. -/
theorem activations_eq (c : Dev nD) :
    (V m c main_v0 : S1x65536.Idx → EReal) = shapeCast S1x65536 (m ((c : Thread nD τ).loc main_arg3)) shapeCasts_S65536_S1x65536 := by
  show StableHlo.after hostOps0 (fun b => m (c, b)) (Proc.devRef .tc main_v0) = _
  after_results
  rfl

theorem activations_apply (c : Dev nD) (j : Fin 65536) :
    (V m c main_v0 : S1x65536.Idx → EReal) (ix2 (0 : Fin 1) j)
      = (m ((c : Thread nD τ).loc main_arg3) : S65536.Idx → EReal) (ix1 j) := by
  rw [activations_eq]
  exact shapeCast_apply _ shapeCasts_S65536_S1x65536 (ix2 (0 : Fin 1) j) (ix1 j)
    (by rewrite [Shape.rowMajor_val_two, Shape.rowMajor_val_one]; show j.val = 0 * 65536 + j.val; omega)

theorem flushedTrue (c : Dev nD) (t : Fin cfg0.N) :
    (dats m 0 c).flushed 5 t
      = ((cfg0.win 5).blk t).view.read (Elt Ideal) (asRow (specTrue (m ((c : Thread nD τ).loc main_arg3)))) := by
  obtain ⟨-, -, e0, e1, -⟩ := index_facts t
  show (cfg0.win 5).cut (grid0.coords t) ((dats m 0 c).after 5 t) = _
  rw [after0_5]
  unfold out0_5
  rw [View.canon_unit_zero zeroOff]
  simp only [View.ld_unit_zero (S := S1x1024) zeroOff]
  funext y
  obtain ⟨p, q, rfl⟩ : ∃ (p : Fin 1) (q : Fin 1024), y = ix2 p q := ⟨y 0, y 1, eq_ix2 y⟩
  obtain rfl : p = 0 := Subsingleton.elim _ _
  have hb : (iblk m c 1 t : S1x1024.Idx → EReal) (ix2 (0 : Fin 1) q) = (V m c main_v0 : S1x65536.Idx → EReal) (ix2 (0 : Fin 1) (colAt t q)) := by
    unfold iblk
    rw [View.read_apply]
    show V m c main_v0 _ = V m c main_v0 _
    refine congrArg (V m c main_v0) (funext fun a => Fin.ext ?_)
    match a with
    | ⟨0, _⟩ => show win0_1.index t (0 : Fin 2) * 1 + 1 * 0 = 0; rw [e0]
    | ⟨1, _⟩ => show win0_1.index t (1 : Fin 2) * 1024 + 1 * q.val = t.val * 1024 + q.val; rw [e1]; omega
  refine ((relu_lane (iblk m c 1 t) (ix2 (0 : Fin 1) q)).trans
    (congrArg (fun z : EReal => max z zero) (hb.trans (activations_apply m c (colAt t q))))).trans ?_
  exact (congrArg (asRow (specTrue (m ((c : Thread nD τ).loc main_arg3)))) (rowEmb5 t q)).symm

theorem finalTrue (c : Dev nD) :
    (dats m 0 c).arrAt 5 cfg0.N = asRow (specTrue (m ((c : Thread nD τ).loc main_arg3))) :=
  (dats m 0 c).arrAt_eq_of_cover 5 _ (fun t _ => flushedTrue m c t) (coverRow5)

end Cert.KernelIdeal.Arrays

end
-- ==== Proof.KernelRun.lean ====
/-
  The idealized kernel's whole run, read: after the region the host flattens the three one-row results, so @main's four
  results are the specification's four functions of the argument arrays, and the arguments are unchanged — provided every
  entry of the term array is a real number.
-/
import proofs.«111873_j37529424233162_2_alg».proof.Proof.KernelArrays

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Arrays Cert.ZonoRelu

variable (m : (ℓ : Loc nD τ sig) → Buf (Elt Ideal) ℓ) (ρ : Dev nD → PrngReg)

/-- Flattening the one-row array made from a vector gives the vector back. -/
theorem flatten_asRow (f : S65536.Idx → EReal) : shapeCast S65536 (asRow f) shapeCasts_S1x65536_S65536 = f := by
  funext i
  rw [shapeCast_apply (asRow f) shapeCasts_S1x65536_S65536 i (ix2 (0 : Fin 1) (i 0))
    (by rewrite [Shape.rowMajor_val_two, Shape.rowMajor_val_one]; show 0 * 65536 + (i 0).val = (i 0).val; omega)]
  exact congrArg f (eq_ix1 i).symm

/-- The lower bounds, flattened by the host after the region. -/
theorem tailMin (c : Dev nD) (hX : ∀ i, IsReal (terms m c i)) :
    Pipeline.afterTail₀ cfgs (dats m) 0 (V0 m) [hostOps1] c main_v2 = specMin (terms m c) := by
  unfold Pipeline.afterTail₀
  show StableHlo.after hostOps1 _ (Proc.devRef .tc main_v2) = _
  after_results
  exact (congrArg (fun z => shapeCast S65536 z shapeCasts_S1x65536_S65536)
    ((Pipeline.withArrays_arr spec0 launch0.win.arr_inj c _ _ 3).trans (finalMin m c hX))).trans (flatten_asRow _)

theorem tailMax (c : Dev nD) (hX : ∀ i, IsReal (terms m c i)) :
    Pipeline.afterTail₀ cfgs (dats m) 0 (V0 m) [hostOps1] c main_v3 = specMax (terms m c) := by
  unfold Pipeline.afterTail₀
  show StableHlo.after hostOps1 _ (Proc.devRef .tc main_v3) = _
  after_results
  exact (congrArg (fun z => shapeCast S65536 z shapeCasts_S1x65536_S65536)
    ((Pipeline.withArrays_arr spec0 launch0.win.arr_inj c _ _ 4).trans (finalMax m c hX))).trans (flatten_asRow _)

theorem tailTrue (c : Dev nD) :
    Pipeline.afterTail₀ cfgs (dats m) 0 (V0 m) [hostOps1] c main_v4 = specTrue (m ((c : Thread nD τ).loc main_arg3)) := by
  unfold Pipeline.afterTail₀
  show StableHlo.after hostOps1 _ (Proc.devRef .tc main_v4) = _
  after_results
  exact (congrArg (fun z => shapeCast S65536 z shapeCasts_S1x65536_S65536)
    ((Pipeline.withArrays_arr spec0 launch0.win.arr_inj c _ _ 5).trans (finalTrue m c))).trans (flatten_asRow _)

/-- The run: each result at the specification of the arguments, the arguments unchanged. -/
theorem run (hX : ∀ (c : Dev nD) (i : S1026x65536.Idx), IsReal ((m ((c : Thread nD τ).loc main_arg0) : S1026x65536.Idx → EReal) i)) :
    θ_run defs (onTc (τ := τ) (main (F := Ideal))) ⟨m, fun _ => 0, ρ⟩ fun r => ∀ c : Dev nD,
      r.2.mem ((c : Thread nD τ).loc main_v1_0) = specNew (m ((c : Thread nD τ).loc main_arg0))
      ∧ r.2.mem ((c : Thread nD τ).loc main_v2) = specMin (m ((c : Thread nD τ).loc main_arg0))
      ∧ r.2.mem ((c : Thread nD τ).loc main_v3) = specMax (m ((c : Thread nD τ).loc main_arg0))
      ∧ r.2.mem ((c : Thread nD τ).loc main_v4) = specTrue (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have hX' : ∀ c i, IsReal (terms m c i) := fun c i => by
    show IsReal (V m c main_arg0 i); rw [V_main_arg0]; exact hX c i
  have ht : ∀ c, terms m c = m ((c : Thread nD τ).loc main_arg0) := fun c => V_main_arg0 m c
  refine (θ_run defs _ _).mono (fun r h c => ?_) (run_main m ρ)
  refine ⟨?_, ?_, ?_, ?_, ?_, ?_, ?_, ?_⟩
  · exact (((h c).1 2).trans (finalNew m c (hX' c))).trans (by rw [ht])
  · exact (((h c).2 main_v2 (Pipeline.mem_restRefs_of main_v2 (by decide) (by decide))).trans (tailMin m c (hX' c))).trans (by rw [ht])
  · exact (((h c).2 main_v3 (Pipeline.mem_restRefs_of main_v3 (by decide) (by decide))).trans (tailMax m c (hX' c))).trans (by rw [ht])
  · exact ((h c).2 main_v4 (Pipeline.mem_restRefs_of main_v4 (by decide) (by decide))).trans (tailTrue m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.Whole

end
-- ==== Proof.FiniteInputs.lean ====
/-
  The precondition read back: when the printed predicate "every float input has magnitude below +∞" is all ones,
  every entry of the term array is a real number.  (The extended reals have two points beyond the reals, and the
  magnitude of either is +∞.)
-/
import proofs.«111873_j37529424233162_2_alg».proof.Pre_finite_inputs
import proofs.«111873_j37529424233162_2_alg».proof.Proof.ColumnMath
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.ZonoRelu

variable [Facts]

instance : Subsingleton S_.Idx := ⟨fun a b => funext fun d => d.elim0⟩

/-- The pattern of +∞ denotes the top of the extended reals. -/
theorem inf_eq : Ideal.ofBits .f32 0x7F800000#32 = ⊤ := by
  simp [Ideal.ofBits, Ideal.ieee]

/-- An extended real whose magnitude is below +∞ is a real number. -/
theorem isReal_of_mag_lt (x : EReal)
    (h : Ideal.cmp .olt (max x (-x)) (Ideal.ofBits .f32 0x7F800000#32) = 1#1) : IsReal x := by
  rw [inf_eq] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x with
  | bot => simp at hlt
  | top => simp at hlt
  | coe r => exact ⟨r, rfl⟩

/-- Under the precondition every entry of the first argument is a real number. -/
theorem arg0_real (a0 : FVec Ideal S1026x65536 .f32) (a1 a2 a3 : FVec Ideal S65536 .f32)
    (h : fn (F := Ideal) a0 a1 a2 a3 = fun _ => 1#1) (i : S1026x65536.Idx) : IsReal (a0 i) := by
  have h0 := congrFun h ValueIdx.ix0
  dsimp only [fn, fn_part1] at h0
  have h3 := (IntOp.andi_eq_one.1 (IntOp.andi_eq_one.1 (IntOp.andi_eq_one.1 h0).1).1).1
  have hi := Host.reduce_andi_all _ _ _ _ _ h3 i
  exact isReal_of_mag_lt (a0 i) hi

end Cert.Pre_finite_inputs.Finite

end
-- ==== Proof.lean ====
/-
  Equivalence, on the extended reals, of the tiled zonotope-ReLU kernel and its array-at-once reference.

  Both programs relax each of the 65536 columns of a [1026, 65536] term array by itself (Proof/ColumnMath.lean): from
  the centre `c` (row 0) and the sum `A` of the magnitudes of rows 1 … 1025 they form the interval `[c - A, c + A]`,
  the slope, the offset and the multiplier, the new column, and the new bounds.  The kernel works on 64 blocks of 1024
  columns; it takes the tail sum as "all 1026 magnitudes less the centre's", builds the new column with one
  row-number select instead of a concatenation, and takes the new tail sum the same way.  On the extended reals
  `(a + s) - a = s` holds when `a` is a real number, so the two spellings agree under the precondition — every entry
  of the term array finite — which is where the precondition is used: for the old centre directly, for the new centre
  because it is then a real number too.  The kernel's sign (a select on the order and the magnitude) is the order's sign.

  Modules: ColumnMath (the scalars, finiteness, the two spellings of the tail sum), Spec (the four results as
  functions of the arrays), RefColumn (the reference's stages are the specification), KernelLane (the body's arithmetic
  per lane), KernelArrays (blocks to arrays), KernelRun (the host's flattening and the run), FiniteInputs (the
  precondition read back).
-/
import proofs.«111873_j37529424233162_2_alg».proof.Defs
import proofs.«111873_j37529424233162_2_alg».proof.Proof.Gen.Kernel
import proofs.«111873_j37529424233162_2_alg».proof.Proof.Gen.Kernel.Skeleton
import proofs.«111873_j37529424233162_2_alg».proof.Proof.Gen.Kernel.Launch
import proofs.«111873_j37529424233162_2_alg».proof.Proof.Gen.Kernel.Points
import proofs.«111873_j37529424233162_2_alg».proof.Proof.Gen.Kernel.Frame
import proofs.«111873_j37529424233162_2_alg».proof.Proof.Gen.KernelIdeal
import proofs.«111873_j37529424233162_2_alg».proof.Proof.Gen.KernelIdeal.Skeleton
import proofs.«111873_j37529424233162_2_alg».proof.Proof.Gen.KernelIdeal.Launch
import proofs.«111873_j37529424233162_2_alg».proof.Proof.Gen.KernelIdeal.Points
import proofs.«111873_j37529424233162_2_alg».proof.Proof.Gen.KernelIdeal.Frame
import proofs.«111873_j37529424233162_2_alg».proof.Proof.Gen.ReferenceIdeal
import proofs.«111873_j37529424233162_2_alg».proof.Proof.Gen.Pre_finite_inputs
import proofs.«111873_j37529424233162_2_alg».proof.Proof.Gen.ReferenceIdeal.Run
import proofs.«111873_j37529424233162_2_alg».proof.Proof.Gen.ReferenceIdeal.Read
import proofs.«111873_j37529424233162_2_alg».proof.Proof.RefColumn
import proofs.«111873_j37529424233162_2_alg».proof.Proof.KernelRun
import proofs.«111873_j37529424233162_2_alg».proof.Proof.FiniteInputs
import Idealize.ShloMosaic.Adequacy
import Idealize.ShloMosaic.Init

noncomputable section

namespace Cert.Proof

open Idealize.ShloMosaic Idealize.SL.Sem Cert.ZonoRelu

/-- The kernel as printed runs, faults nowhere and leaves its arguments unchanged. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- And the reference: its run with the results dropped. -/
theorem frame_reference : Cert.frame_ReferenceIdeal :=
  fun m ρ _ => (θ_run Cert.ReferenceIdeal.defs _ _).mono (fun _ h c => (h c).2.2.2.2)
    (Cert.ReferenceIdeal.Value.run (F := Ideal) m ρ)

/-- The two rewrites of "1.0 with the sign bit of x": each is the sign-bit rule's statement at [1, 1024] and f32. -/
theorem preserves : Cert.preserves_Kernel_KernelIdeal :=
  ⟨IdealRules.sign_bit.statement Cert.KernelIdeal.S1x1024 .f32, IdealRules.sign_bit.statement Cert.KernelIdeal.S1x1024 .f32⟩

/-- Both idealized programs end with the specification's four functions of the arguments. -/
theorem algebraic : Cert.algebraic_KernelIdeal_ReferenceIdeal := by
  intro m ρ m' ρ' hpre hagree
  have hX : ∀ (c : Dev Cert.KernelIdeal.nD) (i : Cert.KernelIdeal.S1026x65536.Idx),
      IsReal ((m ((c.tc : Thread Cert.KernelIdeal.nD Cert.KernelIdeal.τ).loc Cert.KernelIdeal.main_arg0) : Cert.KernelIdeal.S1026x65536.Idx → EReal) i) :=
    fun c i => Cert.Pre_finite_inputs.Finite.arg0_real _ _ _ _ (hpre c) i
  refine ⟨_, _, _, _, Cert.KernelIdeal.Whole.run m ρ hX, ?_⟩
  refine (θ_run Cert.ReferenceIdeal.defs _ _).mono (fun _ h c => ?_) (Cert.ReferenceIdeal.Value.run (F := Ideal) m' ρ')
  obtain ⟨h0, h1, h2, h3, hrest⟩ := h c
  obtain ⟨a0, a1, a2, a3⟩ := hagree c
  refine ⟨?_, ?_, ?_, ?_, hrest⟩
  · rw [h0, Cert.ReferenceIdeal.Read.val_main_v47_eq, Cert.ReferenceIdeal.RefValue.ref_new, a0]
  · rw [h1, Cert.ReferenceIdeal.Read.val_main_v53_eq, Cert.ReferenceIdeal.RefValue.ref_min, a0]
  · rw [h2, Cert.ReferenceIdeal.Read.val_main_v56_eq, Cert.ReferenceIdeal.RefValue.ref_max, a0]
  · rw [h3, Cert.ReferenceIdeal.Read.val_main_v57_eq, Cert.ReferenceIdeal.RefValue.ref_true, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
